-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x50 : Shape := ⟨2, ![8, 50]⟩
abbrev S4096x1024 : Shape := ⟨2, ![4096, 1024]⟩
abbrev S4096 : Shape := ⟨1, ![4096]⟩
abbrev S50x1024 : Shape := ⟨2, ![50, 1024]⟩
abbrev S50x4096 : Shape := ⟨2, ![50, 4096]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x50 : S_.BroadcastsInDim S8x50 (![] : Fin 0 → Fin S8x50.rank)
  reducesTo_S8x50_S_d0_1 : S8x50.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50x1024 : S_.BroadcastsInDim S50x1024 (![] : Fin 0 → Fin S50x1024.rank)
  reducesTo_S50x1024_S_d0_1 : S50x1024.ReducesTo [0, 1] S_
  bcast_S_S50x4096 : S_.BroadcastsInDim S50x4096 (![] : Fin 0 → Fin S50x4096.rank)
  reducesTo_S50x4096_S_d0_1 : S50x4096.ReducesTo [0, 1] S_

variable [Facts]

def fn_part1 {F : FTy → Type} [FloatOps F] (main_arg4 : FVec F S50x1024 .f32) (main_arg5 : FVec F S50x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S50x1024 .f32 := Host.absf main_arg4
  let main_cst_6 : FVec F S_ .f32 := constant S_ .f32 0x7F800000#32
  let main_v20 : FVec F S50x1024 .f32 := broadcastInDim S50x1024 ![] bcast_S_S50x1024 main_cst_6
  let main_v21 : IVec S50x1024 1 := cmpf .olt main_v19 main_v20
  let main_c_7 : IVec S_ 1 := constantI S_ 1 1#1
  let main_v22 : IVec S_ 1 := (fun x v => Host.reduce IntOp.andi x v reducesTo_S50x1024_S_d0_1 h_S_) main_v21 main_c_7
  let main_v23 : IVec S_ 1 := andi main_v18 main_v22
  let main_v24 : FVec F S50x4096 .f32 := Host.absf main_arg5
  let main_cst_8 : FVec F S_ .f32 := constant S_ .f32 0x7F800000#32
  let main_v25 : FVec F S50x4096 .f32 := broadcastInDim S50x4096 ![] bcast_S_S50x4096 main_cst_8
  let main_v26 : IVec S50x4096 1 := cmpf .olt main_v24 main_v25
  let main_c_9 : IVec S_ 1 := constantI S_ 1 1#1
  let main_v27 : IVec S_ 1 := (fun x v => Host.reduce IntOp.andi x v reducesTo_S50x4096_S_d0_1 h_S_) main_v26 main_c_9
  let main_v28 : IVec S_ 1 := andi main_v23 main_v27
  main_v28

def fn {F : FTy → Type} [FloatOps F] (main_arg0 : FVec F S8x1024x1024 .f32) (main_arg1 : FVec F S8x50 .f32) (main_arg2 : FVec F S4096x1024 .f32) (main_arg3 : FVec F S4096 .f32) (main_arg4 : FVec F S50x1024 .f32) (main_arg5 : FVec F S50x4096 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x50 .f32 := Host.absf main_arg1
  let main_cst_0 : FVec F S_ .f32 := constant S_ .f32 0x7F800000#32
  let main_v5 : FVec F S8x50 .f32 := broadcastInDim S8x50 ![] bcast_S_S8x50 main_cst_0
  let main_v6 : IVec S8x50 1 := cmpf .olt main_v4 main_v5
  let main_c_1 : IVec S_ 1 := constantI S_ 1 1#1
  let main_v7 : IVec S_ 1 := (fun x v => Host.reduce IntOp.andi x v reducesTo_S8x50_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x1024x1024 : Shape := ⟨3, ![8, 1024, 1024]⟩
abbrev S8x50 : Shape := ⟨2, ![8, 50]⟩
abbrev S4096x1024 : Shape := ⟨2, ![4096, 1024]⟩
abbrev S4096 : Shape := ⟨1, ![4096]⟩
abbrev S50x1024 : Shape := ⟨2, ![50, 1024]⟩
abbrev S50x4096 : Shape := ⟨2, ![50, 4096]⟩
abbrev S8x1024 : Shape := ⟨2, ![8, 1024]⟩
abbrev S8x4096 : Shape := ⟨2, ![8, 4096]⟩
abbrev S8x1x1024 : Shape := ⟨3, ![8, 1, 1024]⟩
abbrev S8x1x4096 : Shape := ⟨3, ![8, 1, 4096]⟩
abbrev S1x4096 : Shape := ⟨2, ![1, 4096]⟩
abbrev S8x1024x4096 : Shape := ⟨3, ![8, 1024, 4096]⟩
abbrev S1x256x1024 : Shape := ⟨3, ![1, 256, 1024]⟩
abbrev S1x1x1024 : Shape := ⟨3, ![1, 1, 1024]⟩
abbrev S1x1x4096 : Shape := ⟨3, ![1, 1, 4096]⟩
abbrev S1x256x4096 : Shape := ⟨3, ![1, 256, 4096]⟩
abbrev S256x1024 : Shape := ⟨2, ![256, 1024]⟩
abbrev S1024 : Shape := ⟨1, ![1024]⟩
abbrev S1x1024 : Shape := ⟨2, ![1, 1024]⟩
abbrev S256x4096 : Shape := ⟨2, ![256, 4096]⟩

abbrev nBuf : Space → Nat
  | .hbm => 13
  | .vmem => 10
  | .smem => 0
  | _ => 0

abbrev bufTy : (tb : Table) → Fin (tcTables nBuf tb) → BufTy
  | .hbm, ⟨0, _⟩ => ⟨S8x1024x1024, .f32⟩
  | .hbm, ⟨1, _⟩ => ⟨S8x50, .f32⟩
  | .hbm, ⟨2, _⟩ => ⟨S4096x1024, .f32⟩
  | .hbm, ⟨3, _⟩ => ⟨S4096, .f32⟩
  | .hbm, ⟨4, _⟩ => ⟨S50x1024, .f32⟩
  | .hbm, ⟨5, _⟩ => ⟨S50x4096, .f32⟩
  | .hbm, ⟨6, _⟩ => ⟨S8x1024, .f32⟩
  | .hbm, ⟨7, _⟩ => ⟨S8x4096, .f32⟩
  | .hbm, ⟨8, _⟩ => ⟨S8x1x1024, .f32⟩
  | .hbm, ⟨9, _⟩ => ⟨S8x1x4096, .f32⟩
  | .hbm, ⟨10, _⟩ => ⟨S1x4096, .f32⟩
  | .hbm, ⟨11, _⟩ => ⟨S4096x1024, .bf16⟩
  | .hbm, ⟨12, _⟩ => ⟨S8x1024x4096, .f32⟩
  | .local _ .vmem, ⟨0, _⟩ => ⟨S1x256x1024, .f32⟩
  | .local _ .vmem, ⟨1, _⟩ => ⟨S1x256x1024, .f32⟩
  | .local _ .vmem, ⟨2, _⟩ => ⟨S4096x1024, .bf16⟩
  | .local _ .vmem, ⟨3, _⟩ => ⟨S1x1x1024, .f32⟩
  | .local _ .vmem, ⟨4, _⟩ => ⟨S1x1x1024, .f32⟩
  | .local _ .vmem, ⟨5, _⟩ => ⟨S1x1x4096, .f32⟩
  | .local _ .vmem, ⟨6, _⟩ => ⟨S1x1x4096, .f32⟩
  | .local _ .vmem, ⟨7, _⟩ => ⟨S1x4096, .f32⟩
  | .local _ .vmem, ⟨8, _⟩ => ⟨S1x256x4096, .f32⟩
  | .local _ .vmem, ⟨9, _⟩ => ⟨S1x256x4096, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x1024_S8x1x1024 : S8x1024.ShapeCasts S8x1x1024
  shapeCasts_S8x4096_S8x1x4096 : S8x4096.ShapeCasts S8x1x4096
  shapeCasts_S4096_S1x4096 : S4096.ShapeCasts S1x4096
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  inb_S1x4096_S1x4096_0_0 : ∀ a, (![0, 0] : Fin 2 → Nat) a + S1x4096.size a ≤ S1x4096.size a
  h_S1x4096 : 0 < S1x4096.numel
  shapeCasts_S1x4096_S4096 : S1x4096.ShapeCasts S4096
  shapeCasts_S1024_S1x1024 : S1024.ShapeCasts S1x1024
  broadcasts_S1x1024_S256x1024 : S1x1024.Broadcasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  broadcasts_S1x4096_S256x4096 : S1x4096.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S8x50_S50x1024_S8x1024_1_0_0_1_n_n_wf : DotDims.WF S8x50 S50x1024 S8x1024 [1] [0] [0] [1] [] []
  dot_S8x50_S50x4096_S8x4096_1_0_0_1_n_n_wf : DotDims.WF S8x50 S50x4096 S8x4096 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .f32 = 32 ∨ (Rect.block (s := S8x1024x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S8x1024x4096.size a
  hwx0_5 : ∀ i : grid0.Coords, EltTy.bits .f32 = 32 ∨ (Rect.block (s := S8x1024x4096) S1x256x4096.size (cc0_transform_5 i) (hinb0_5 i)).WholeWords (EltTy.packing .f32)

variable [Facts₀]

def dot_S8x50_S50x1024_S8x1024_1_0_0_1_n_n : DotDims S8x50 S50x1024 S8x1024 where
  lhsContracting := [1]
  rhsContracting := [0]
  lhsNonContracting := [0]
  rhsNonContracting := [1]
  lhsBatch := []
  rhsBatch := []
  wf := dot_S8x50_S50x1024_S8x1024_1_0_0_1_n_n_wf
def dot_S8x50_S50x4096_S8x4096_1_0_0_1_n_n : DotDims S8x50 S50x4096 S8x4096 where
  lhsContracting := [1]
  rhsContracting := [0]
  lhsNonContracting := [0]
  rhsNonContracting := [1]
  lhsBatch := []
  rhsBatch := []
  wf := dot_S8x50_S50x4096_S8x4096_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x50 : Shape := ⟨2, ![8, 50]⟩
abbrev S4096x1024 : Shape := ⟨2, ![4096, 1024]⟩
abbrev S4096 : Shape := ⟨1, ![4096]⟩
abbrev S50x1024 : Shape := ⟨2, ![50, 1024]⟩
abbrev S50x4096 : Shape := ⟨2, ![50, 4096]⟩
abbrev S8x1024 : Shape := ⟨2, ![8, 1024]⟩
abbrev S8x4096 : Shape := ⟨2, ![8, 4096]⟩
abbrev S8x1x1024 : Shape := ⟨3, ![8, 1, 1024]⟩
abbrev S8x1024x4096 : Shape := ⟨3, ![8, 1024, 4096]⟩
abbrev S8x1x4096 : Shape := ⟨3, ![8, 1, 4096]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x50, .f32⟩
  | .hbm, ⟨2, _⟩ => ⟨S4096x1024, .f32⟩
  | .hbm, ⟨3, _⟩ => ⟨S4096, .f32⟩
  | .hbm, ⟨4, _⟩ => ⟨S50x1024, .f32⟩
  | .hbm, ⟨5, _⟩ => ⟨S50x4096, .f32⟩
  | .hbm, ⟨6, _⟩ => ⟨S8x1024, .f32⟩
  | .hbm, ⟨7, _⟩ => ⟨S8x4096, .f32⟩
  | .hbm, ⟨8, _⟩ => ⟨S8x1x1024, .f32⟩
  | .hbm, ⟨9, _⟩ => ⟨S8x1024x1024, .f32⟩
  | .hbm, ⟨10, _⟩ => ⟨S8x1024x1024, .f32⟩
  | .hbm, ⟨11, _⟩ => ⟨S8x1024x4096, .f32⟩
  | .hbm, ⟨12, _⟩ => ⟨S8x1x4096, .f32⟩
  | .hbm, ⟨13, _⟩ => ⟨S8x1024x4096, .f32⟩
  | .hbm, ⟨14, _⟩ => ⟨S8x1024x4096, .f32⟩
  | .hbm, ⟨15, _⟩ => ⟨S1x1x4096, .f32⟩
  | .hbm, ⟨16, _⟩ => ⟨S8x1024x4096, .f32⟩
  | .hbm, ⟨17, _⟩ => ⟨S8x1024x4096, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  bcast_S8x1x1024_S8x1024x1024_0_1_2 : S8x1x1024.BroadcastsInDim S8x1024x1024 (![0, 1, 2] : Fin 3 → Fin S8x1024x1024.rank)
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  dot_S8x50_S50x1024_S8x1024_1_0_0_1_n_n_wf : DotDims.WF S8x50 S50x1024 S8x1024 [1] [0] [0] [1] [] []
  dot_S8x50_S50x4096_S8x4096_1_0_0_1_n_n_wf : DotDims.WF S8x50 S50x4096 S8x4096 [1] [0] [0] [1] [] []
  dot_S8x1024x1024_S4096x1024_S8x1024x4096_2_1_01_0_n_n_wf : DotDims.WF S8x1024x1024 S4096x1024 S8x1024x4096 [2] [1] [0, 1] [0] [] []

variable [Facts₀]

def dot_S8x50_S50x1024_S8x1024_1_0_0_1_n_n : DotDims S8x50 S50x1024 S8x1024 where
  lhsContracting := [1]
  rhsContracting := [0]
  lhsNonContracting := [0]
  rhsNonContracting := [1]
  lhsBatch := []
  rhsBatch := []
  wf := dot_S8x50_S50x1024_S8x1024_1_0_0_1_n_n_wf
def dot_S8x50_S50x4096_S8x4096_1_0_0_1_n_n : DotDims S8x50 S50x4096 S8x4096 where
  lhsContracting := [1]
  rhsContracting := [0]
  lhsNonContracting := [0]
  rhsNonContracting := [1]
  lhsBatch := []
  rhsBatch := []
  wf := dot_S8x50_S50x4096_S8x4096_1_0_0_1_n_n_wf
def dot_S8x1024x1024_S4096x1024_S8x1024x4096_2_1_01_0_n_n : DotDims S8x1024x1024 S4096x1024 S8x1024x4096 where
  lhsContracting := [2]
  rhsContracting := [1]
  lhsNonContracting := [0, 1]
  rhsNonContracting := [0]
  lhsBatch := []
  rhsBatch := []
  wf := dot_S8x1024x1024_S4096x1024_S8x1024x4096_2_1_01_0_n_n_wf

class Facts : Prop extends Facts₀ where

variable [Facts]
-- ==== Proof.LibUnsqueeze.lean ====
/-
  A cast that inserts a middle axis of extent one, [a, b] → [a, 1, b], read at an index: entry (i, 0, j) of the result is
  entry (i, j) of the operand, both being at position i·b + j in row-major order. (The companion of the cast that drops
  that axis.)
-/
import Idealize.ShloMosaic.Lib.ValueIdx
import Idealize.ShloMosaic.Lib.Pipeline.Value

noncomputable section

namespace Cert.LibUnsqueeze

open Idealize.ShloMosaic Idealize.ShloMosaic.ValueIdx

variable {α : Type}

/-- An `[a, b]` array cast to `[a, 1, b]` reads, at `(i, o, j)`, the operand at `(i, j)`: the middle coordinate `o` can only
    be zero, and both positions are `i·b + j` in row-major order. -/
theorem shapeCast_ab_a1b_apply {a b : ℕ} (x : (⟨2, ![a, b]⟩ : Shape).Idx → α)
    (h : (⟨2, ![a, b]⟩ : Shape).ShapeCasts ⟨3, ![a, 1, b]⟩) (i : Fin a) (o : Fin 1) (j : Fin b) :
    shapeCast ⟨3, ![a, 1, b]⟩ x h (ix3 i o j) = x (ix2 i j) :=
  shapeCast_apply x h _ _ (by
    rw [Shape.rowMajor_val_two, Shape.rowMajor_val_three]
    show i.val * b + j.val = (i.val * 1 + o.val) * b + j.val
    have ho : o.val = 0 := by have := o.isLt; omega
    rw [ho, Nat.mul_one, Nat.add_zero])

end Cert.LibUnsqueeze

end
-- ==== Proof.Arrays.lean ====
/-
  The arrays the kernel's windows stage, as the region finds them. Before the call the program computes the two small
  products l = cluster · style_L and r = cluster · style_R, recasts them [8, n] → [8, 1, n], recasts the bias
  [4096] → [1, 4096] and rounds the weight to bf16. A recast keeps every entry at its row-major position and the rounding
  is the identity on the extended reals, so entry by entry the staged arrays are x, w, l, r and the bias themselves.
-/
import proofs.«147499_j74191265071781_2_alg».proof.Proof.Gen.KernelIdeal.Frame
import proofs.«147499_j74191265071781_2_alg».proof.Proof.LibUnsqueeze
import Idealize.ShloMosaic.Lib.ValueIdx
import Idealize.ShloMosaic.Lib.ValueLayout
import Idealize.ShloMosaic.Lib.Pipeline.Value
import Idealize.ShloMosaic.Lib.StableHlo.Run

noncomputable section

namespace Cert.ModGemm.Kernel

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- l = cluster · style_L, as the kernel's program computes it on the host. -/
def scaleL (c : Dev nD) : S8x1024.Idx → EReal :=
  Host.dotGeneral (F := Ideal) (φ₁ := .f32) (φ₂ := .f32) dot_S8x50_S50x1024_S8x1024_1_0_0_1_n_n none
    (m ((c : Thread nD τ).loc main_arg1) : FVec Ideal S8x50 .f32) (m ((c : Thread nD τ).loc main_arg4) : FVec Ideal S50x1024 .f32)

/-- r = cluster · style_R, likewise. -/
def scaleR (c : Dev nD) : S8x4096.Idx → EReal :=
  Host.dotGeneral (F := Ideal) (φ₁ := .f32) (φ₂ := .f32) dot_S8x50_S50x4096_S8x4096_1_0_0_1_n_n none
    (m ((c : Thread nD τ).loc main_arg1) : FVec Ideal S8x50 .f32) (m ((c : Thread nD τ).loc main_arg5) : FVec Ideal S50x4096 .f32)

theorem staged_l (c : Dev nD) :
    (V m c main_v2 : S8x1x1024.Idx → EReal) = shapeCast S8x1x1024 (scaleL m c) shapeCasts_S8x1024_S8x1x1024 := by
  dsimp only [Gen.V, Gen.hostOps0]; after_results; rfl

theorem staged_r (c : Dev nD) :
    (V m c main_v3 : S8x1x4096.Idx → EReal) = shapeCast S8x1x4096 (scaleR m c) shapeCasts_S8x4096_S8x1x4096 := by
  dsimp only [Gen.V, Gen.hostOps0]; after_results; rfl

theorem staged_bias (c : Dev nD) :
    (V m c main_v4 : S1x4096.Idx → EReal)
      = shapeCast S1x4096 (m ((c : Thread nD τ).loc main_arg3) : S4096.Idx → EReal) shapeCasts_S4096_S1x4096 := by
  dsimp only [Gen.V, Gen.hostOps0]; after_results; rfl

theorem staged_w (c : Dev nD) :
    (V m c main_v5 : S4096x1024.Idx → EReal)
      = truncf (F := Ideal) .bf16 (m ((c : Thread nD τ).loc main_arg2) : FVec Ideal S4096x1024 .f32) bitsLt_bf16_f32 := by
  dsimp only [Gen.V, Gen.hostOps0]; after_results

/-- Entry (b, 0, k) of the staged l is l[b, k]. -/
theorem l_at (c : Dev nD) (b : Fin 8) (o : Fin 1) (k : Fin 1024) :
    (V m c main_v2 : S8x1x1024.Idx → EReal) (ix3 b o k) = scaleL m c (ix2 b k) := by
  rw [staged_l]; exact Cert.LibUnsqueeze.shapeCast_ab_a1b_apply _ _ b o k

/-- Entry (b, 0, f) of the staged r is r[b, f]. -/
theorem r_at (c : Dev nD) (b : Fin 8) (o : Fin 1) (f : Fin 4096) :
    (V m c main_v3 : S8x1x4096.Idx → EReal) (ix3 b o f) = scaleR m c (ix2 b f) := by
  rw [staged_r]; exact Cert.LibUnsqueeze.shapeCast_ab_a1b_apply _ _ b o f

/-- Entry (0, f) of the staged bias row is bias[f]. -/
theorem bias_at (c : Dev nD) (o : Fin 1) (f : Fin 4096) :
    (V m c main_v4 : S1x4096.Idx → EReal) (ix2 o f) = (m ((c : Thread nD τ).loc main_arg3) : S4096.Idx → EReal) (ix1 f) := by
  rw [staged_bias]; exact shapeCast_a_1a_apply _ _ o f

/-- Entry (f, k) of the staged weight is w[f, k]: the rounding to bf16 is the identity here. -/
theorem w_at (c : Dev nD) (f : Fin 4096) (k : Fin 1024) :
    (V m c main_v5 : S4096x1024.Idx → EReal) (ix2 f k)
      = (m ((c : Thread nD τ).loc main_arg2) : S4096x1024.Idx → EReal) (ix2 f k) := by
  rw [staged_w]; rfl

/-- The rows are staged as launched. -/
theorem x_at (c : Dev nD) (i : S8x1024x1024.Idx) :
    (V m c main_arg0 : S8x1024x1024.Idx → EReal) i = (m ((c : Thread nD τ).loc main_arg0) : S8x1024x1024.Idx → EReal) i := by
  rw [V_main_arg0]

end Cert.ModGemm.Kernel

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibDropTwoUnits.lean ====
/-
  A cast that drops two leading axes of extent one, [1, 1, a] → [a], read at an index: entry i of the result is entry
  (0, 0, i) of the operand, both at position i in row-major order.
-/
import Idealize.ShloMosaic.Lib.ValueIdx
import Idealize.ShloMosaic.Lib.Pipeline.Value

noncomputable section

namespace Cert.LibDropTwoUnits

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Cert.LibDropTwoUnits

end
-- ==== Proof.PayloadAt.lean ====
/-
  What the kernel body stores, entry by entry. From a [1, 256, 1024] block x of rows, the [1, 1, 1024] row l, the
  [1, 1, 4096] row r, the [1, 4096] bias row and the whole [4096, 1024] weight w, the body stores the [1, 256, 4096] block
  whose entry (0, p, f) is

      (Σ_k (x[0, p, k] · l[0, 0, k]) · w[f, k]) · r[0, 0, f] + bias[0, f].

  The product into the zero accumulator contracts the second axis of both operands, so its entry (p, f) is the sum over
  k of the left operand at (p, k) times the right at (f, k); the rounding of the left operand to bf16 is the identity
  on the extended reals; every other operation is pointwise, a cast that only adds or drops axes of extent one, or the
  broadcast of one row over the 256 rows.
-/
import proofs.«147499_j74191265071781_2_alg».proof.Proof.Gen.KernelIdeal.Skeleton
import proofs.«147499_j74191265071781_2_alg».proof.Proof.LibMatmul
import proofs.«147499_j74191265071781_2_alg».proof.Proof.LibDropTwoUnits
import Idealize.ShloMosaic.Lib.ValueIdx
import Idealize.ShloMosaic.Lib.ValueLayout
import Idealize.ShloMosaic.Lib.Pipeline.Value
import Idealize.ShloMosaic.PureOps.Ideal.Laws

noncomputable section

namespace Cert.ModGemm.Body

open Idealize.ShloMosaic Idealize.ShloMosaic.ValueIdx
open Cert.KernelIdeal Cert.KernelIdeal.Gen

/-- The product's left operand index at output (p, f) and contraction position q: row p, column q. -/
theorem lhs_row (j : S256x4096.Idx) (q : dot_S256x1024_S4096x1024_S256x4096_1_1_0_0_n_n.contr.Idx) :
    (dot_S256x1024_S4096x1024_S256x4096_1_1_0_0_n_n.lhsIdx j q 0).val = (j 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl

theorem lhs_col (j : S256x4096.Idx) (q : dot_S256x1024_S4096x1024_S256x4096_1_1_0_0_n_n.contr.Idx) :
    (dot_S256x1024_S4096x1024_S256x4096_1_1_0_0_n_n.lhsIdx j q 1).val = (q ⟨0, by decide⟩).val :=
  dot_S256x1024_S4096x1024_S256x4096_1_1_0_0_n_n.lhsIdx_val_of_single rfl j q

/-- The right operand index: row f (the output's column), column q. -/
theorem rhs_row (j : S256x4096.Idx) (q : dot_S256x1024_S4096x1024_S256x4096_1_1_0_0_n_n.contr.Idx) :
    (dot_S256x1024_S4096x1024_S256x4096_1_1_0_0_n_n.rhsIdx j q 0).val = (j 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl

theorem rhs_col (j : S256x4096.Idx) (q : dot_S256x1024_S4096x1024_S256x4096_1_1_0_0_n_n.contr.Idx) :
    (dot_S256x1024_S4096x1024_S256x4096_1_1_0_0_n_n.rhsIdx j q 1).val = (q ⟨0, by decide⟩).val :=
  dot_S256x1024_S4096x1024_S256x4096_1_1_0_0_n_n.rhsIdx_val_of_single rfl j q

/-- The product into zero, at (p, f): the sum over k of left (p, k) times right (f, k). -/
theorem product_at (a : FVec Ideal S256x1024 .bf16) (w : FVec Ideal S4096x1024 .bf16) (p : Fin 256) (f : Fin 4096) :
    matmul dot_S256x1024_S4096x1024_S256x4096_1_1_0_0_n_n none a w (constant S256x4096 .f32 0x00000000#32) (ix2 p f)
      = ∑ k : Fin 1024, a (ix2 p k) * w (ix2 f k) :=
  Cert.LibMatmul.matmul_zero_sum1 dot_S256x1024_S4096x1024_S256x4096_1_1_0_0_n_n none 1024 rfl rfl a w (ix2 p f)
    (fun k => ix2 p k) (fun k => ix2 f k)
    (fun q k hk => funext fun d => Fin.ext (by
      match d with
      | ⟨0, _⟩ => exact lhs_row _ _
      | ⟨1, _⟩ => exact (lhs_col _ _).trans hk))
    (fun q k hk => funext fun d => Fin.ext (by
      match d with
      | ⟨0, _⟩ => exact rhs_row _ _
      | ⟨1, _⟩ => exact (rhs_col _ _).trans hk))

/-- A [1, 1, n] row cast to [n], then to [1, n], then broadcast over 256 rows, reads the row at (0, 0, f). -/
theorem row3_at {n : ℕ} (v : (⟨3, ![1, 1, n]⟩ : Shape).Idx → EReal)
    (h1 : (⟨3, ![1, 1, n]⟩ : Shape).ShapeCasts ⟨1, ![n]⟩) (h2 : (⟨1, ![n]⟩ : Shape).ShapeCasts ⟨2, ![1, n]⟩)
    (h3 : (⟨2, ![1, n]⟩ : Shape).Broadcasts ⟨2, ![256, n]⟩) (p : Fin 256) (f : Fin n) :
    broadcastTo ⟨2, ![256, n]⟩ (shapeCast ⟨2, ![1, n]⟩ (shapeCast ⟨1, ![n]⟩ v h1) h2) h3 (ix2 p f)
      = v (ix3 (0 : Fin 1) (0 : Fin 1) f) := by
  rw [broadcastTo_1b_ab_apply, shapeCast_a_1a_apply, Cert.LibDropTwoUnits.shapeCast_11a_a_apply]

/-- A [1, n] row cast to [n], then back to [1, n], then broadcast over 256 rows, reads the row at (0, f). -/
theorem row2_at {n : ℕ} (v : (⟨2, ![1, n]⟩ : Shape).Idx → EReal)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![256, n]⟩) (p : Fin 256) (f : Fin n) :
    broadcastTo ⟨2, ![256, n]⟩ (shapeCast ⟨2, ![1, n]⟩ (shapeCast ⟨1, ![n]⟩ v h1) h2) h3 (ix2 p f)
      = v (ix2 (0 : Fin 1) f) := by
  rw [broadcastTo_1b_ab_apply, shapeCast_a_1a_apply, shapeCast_1a_a_apply]

/-- The stored block at (u, p, f). -/
theorem stored_at (v0 : Vec Ideal S1x256x1024 .f32) (v2 : Vec Ideal S1x1x1024 .f32) (v4 : Vec Ideal S1x1x4096 .f32)
    (v6 : Vec Ideal S1x4096 .f32) (v12 : Vec Ideal S4096x1024 .bf16) (u : Fin 1) (p : Fin 256) (f : Fin 4096) :
    k0_pay1 (F := Ideal) v0 v2 v4 v6 v12 (ix3 u p f)
      = (∑ k : Fin 1024, v0 (ix3 (0 : Fin 1) p k) * v2 (ix3 (0 : Fin 1) (0 : Fin 1) k) * v12 (ix2 f k))
          * v4 (ix3 (0 : Fin 1) (0 : Fin 1) f) + v6 (ix2 (0 : Fin 1) f) := by
  unfold k0_pay1
  refine (shapeCast_ab_1ab_apply _ _ u p f).trans ?_
  rw [addf_apply, mulf_apply, product_at, row3_at, row2_at, shapeCast_self]
  refine congrArg (fun s => s * _ + _) (Finset.sum_congr rfl fun k _ => ?_)
  rw [truncf_apply, mulf_apply, shapeCast_1ab_ab_apply, row3_at]

end Cert.ModGemm.Body

end
-- ==== Proof.Spec.lean ====
/-
  The function both programs compute. For a batch b, a row t and an output feature f,

      out[b, t, f] = (Σ_k (x[b, t, k] · l[b, k]) · w[f, k]) · r[b, f] + bias[f],

  a dense layer whose input features are scaled per batch by l and whose output features are scaled per batch by r
  (a rank-one modulation of the weight, factored out of the product). Here it is stated over the extended reals with
  l and r given as arrays; the two programs obtain them as the same products cluster · style_L and cluster · style_R.
-/
import Idealize.ShloMosaic.PureOps.Ideal
import Idealize.ShloMosaic.Lib.ValueIdx

noncomputable section

namespace Cert.ModGemm

open Idealize.ShloMosaic Idealize.ShloMosaic.ValueIdx

/-- One entry of the modulated dense layer, by coordinates. -/
def entry (x : (⟨3, ![8, 1024, 1024]⟩ : Shape).Idx → EReal) (l : (⟨2, ![8, 1024]⟩ : Shape).Idx → EReal)
    (w : (⟨2, ![4096, 1024]⟩ : Shape).Idx → EReal) (r : (⟨2, ![8, 4096]⟩ : Shape).Idx → EReal)
    (bias : (⟨1, ![4096]⟩ : Shape).Idx → EReal) (b : Fin 8) (t : Fin 1024) (f : Fin 4096) : EReal :=
  (∑ k : Fin 1024, x (ix3 b t k) * l (ix2 b k) * w (ix2 f k)) * r (ix2 b f) + bias (ix1 f)

/-- The whole result array. -/
def modGemm (x : (⟨3, ![8, 1024, 1024]⟩ : Shape).Idx → EReal) (l : (⟨2, ![8, 1024]⟩ : Shape).Idx → EReal)
    (w : (⟨2, ![4096, 1024]⟩ : Shape).Idx → EReal) (r : (⟨2, ![8, 4096]⟩ : Shape).Idx → EReal)
    (bias : (⟨1, ![4096]⟩ : Shape).Idx → EReal) : (⟨3, ![8, 1024, 4096]⟩ : Shape).Idx → EReal :=
  fun i => entry x l w r bias (i 0) (i 1) (i 2)

theorem modGemm_ix3 (x : (⟨3, ![8, 1024, 1024]⟩ : Shape).Idx → EReal) (l : (⟨2, ![8, 1024]⟩ : Shape).Idx → EReal)
    (w : (⟨2, ![4096, 1024]⟩ : Shape).Idx → EReal) (r : (⟨2, ![8, 4096]⟩ : Shape).Idx → EReal)
    (bias : (⟨1, ![4096]⟩ : Shape).Idx → EReal) (b : Fin 8) (t : Fin 1024) (f : Fin 4096) :
    modGemm x l w r bias (ix3 b t f) = entry x l w r bias b t f := rfl

end Cert.ModGemm

end
-- ==== Proof.Blocks.lean ====
/-
  From blocks to the array. The grid has 8 × 4 points; point (b, s) stages rows 256·s … 256·s + 255 of batch b of x, the
  rows l[b, ·] and r[b, ·], the bias row and the whole weight, and writes back rows 256·s … 256·s + 255 of batch b of the
  result. Each entry the body stores there is the modulated dense layer's entry at that batch, row and feature, so what a
  point writes back is its block of one whole-array function; the 32 blocks tile the result array (the block holding
  row t of batch b is the one at point (b, t / 256)), so after the run the array is that function.
-/
import proofs.«147499_j74191265071781_2_alg».proof.Proof.Gen.KernelIdeal.Value
import proofs.«147499_j74191265071781_2_alg».proof.Proof.Arrays
import proofs.«147499_j74191265071781_2_alg».proof.Proof.PayloadAt
import proofs.«147499_j74191265071781_2_alg».proof.Proof.Spec

noncomputable section

namespace Cert.ModGemm.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 32 grid points: the rows of x move with the output's block on the batch and
    row axes; l and r move with it on the batch axis; the weight and the bias do not move; the output's batch index is
    below 8 and its row-block index below 4. -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 3) < 8 ∧ win0_5.index t (1 : Fin 3) < 4 ∧ win0_5.index t (2 : Fin 3) = 0 :=
  (by decide +kernel : ∀ t : Fin grid0.N, _)

/-- Every (batch, row block) pair is some point's. -/
theorem index_onto : ∀ (b : Fin 8) (s : Fin 4), ∃ t : Fin cfg0.N, win0_5.index t = ![b.val, s.val, 0] :=
  (by decide +kernel : ∀ (b : Fin 8) (s : Fin 4), ∃ t : Fin grid0.N, win0_5.index t = ![b.val, s.val, 0])

/-- Row p of row block s of a batch: row 256·s + p. -/
def rowOf (s : Fin 4) (p : Fin 256) : Fin 1024 := ⟨s.val * 256 + p.val, by have := s.isLt; have := p.isLt; omega⟩

/-! ## Each staged block, read at an entry -/

/-- The block of x at a point whose indices are (b, s, 0): entry (0, p, k) is x[b, 256·s + p, k]. -/
theorem x_block (c : Dev nD) (t : Fin cfg0.N) (b : Fin 8) (s : Fin 4)
    (hb : win0_0.index t (0 : Fin 3) = b.val) (hs : win0_0.index t (1 : Fin 3) = s.val) (h2 : win0_0.index t (2 : Fin 3) = 0)
    (p : Fin 256) (k : Fin 1024) :
    (iblk m c 0 t : Vec Ideal S1x256x1024 .f32) (ix3 (0 : Fin 1) p k)
      = (m ((c : Thread nD τ).loc main_arg0) : S8x1024x1024.Idx → EReal)
          (ix3 b (rowOf s p) k) := by
  unfold iblk
  rw [View.read_apply]
  refine (congrArg (V m c main_arg0 : S8x1024x1024.Idx → EReal) (funext fun a => Fin.ext ?_)).trans (x_at m c _)
  match a with
  | ⟨0, _⟩ => show win0_0.index t (0 : Fin 3) * 1 + 1 * 0 = b.val; omega
  | ⟨1, _⟩ => show win0_0.index t (1 : Fin 3) * 256 + 1 * p.val = s.val * 256 + p.val; omega
  | ⟨2, _⟩ => show win0_0.index t (2 : Fin 3) * 1024 + 1 * k.val = k.val; omega

/-- The weight's one block is the whole weight: entry (f, k) is w[f, k]. -/
theorem w_block (c : Dev nD) (t : Fin cfg0.N)
    (h0 : win0_1.index t (0 : Fin 2) = 0) (h1 : win0_1.index t (1 : Fin 2) = 0) (f : Fin 4096) (k : Fin 1024) :
    (iblk m c 1 t : Vec Ideal S4096x1024 .bf16) (ix2 f k)
      = (m ((c : Thread nD τ).loc main_arg2) : S4096x1024.Idx → EReal) (ix2 f k) := by
  unfold iblk
  rw [View.read_apply]
  refine (congrArg (V m c main_v5 : S4096x1024.Idx → EReal) (funext fun a => Fin.ext ?_)).trans (w_at m c f k)
  match a with
  | ⟨0, _⟩ => show win0_1.index t (0 : Fin 2) * 4096 + 1 * f.val = f.val; omega
  | ⟨1, _⟩ => show win0_1.index t (1 : Fin 2) * 1024 + 1 * k.val = k.val; omega

/-- The block of l at a point of batch index b: entry (0, 0, k) is l[b, k]. -/
theorem l_block (c : Dev nD) (t : Fin cfg0.N) (b : Fin 8)
    (hb : win0_2.index t (0 : Fin 3) = b.val) (h1 : win0_2.index t (1 : Fin 3) = 0) (h2 : win0_2.index t (2 : Fin 3) = 0)
    (k : Fin 1024) :
    (iblk m c 2 t : Vec Ideal S1x1x1024 .f32) (ix3 (0 : Fin 1) (0 : Fin 1) k) = scaleL m c (ix2 b k) := by
  unfold iblk
  rw [View.read_apply]
  refine (congrArg (V m c main_v2 : S8x1x1024.Idx → EReal) (funext fun a => Fin.ext ?_)).trans (l_at m c b (0 : Fin 1) k)
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 1024 + 1 * k.val = k.val; omega

/-- The block of r at a point of batch index b: entry (0, 0, f) is r[b, f]. -/
theorem r_block (c : Dev nD) (t : Fin cfg0.N) (b : Fin 8)
    (hb : win0_3.index t (0 : Fin 3) = b.val) (h1 : win0_3.index t (1 : Fin 3) = 0) (h2 : win0_3.index t (2 : Fin 3) = 0)
    (f : Fin 4096) :
    (iblk m c 3 t : Vec Ideal S1x1x4096 .f32) (ix3 (0 : Fin 1) (0 : Fin 1) f) = scaleR m c (ix2 b f) := by
  unfold iblk
  rw [View.read_apply]
  refine (congrArg (V m c main_v3 : S8x1x4096.Idx → EReal) (funext fun a => Fin.ext ?_)).trans (r_at m c b (0 : Fin 1) f)
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 4096 + 1 * f.val = f.val; omega

/-- The bias row's one block is the whole row: entry (0, f) is bias[f]. -/
theorem bias_block (c : Dev nD) (t : Fin cfg0.N)
    (h0 : win0_4.index t (0 : Fin 2) = 0) (h1 : win0_4.index t (1 : Fin 2) = 0) (f : Fin 4096) :
    (iblk m c 4 t : Vec Ideal S1x4096 .f32) (ix2 (0 : Fin 1) f)
      = (m ((c : Thread nD τ).loc main_arg3) : S4096.Idx → EReal) (ix1 f) := by
  unfold iblk
  rw [View.read_apply]
  refine (congrArg (V m c main_v4 : S1x4096.Idx → EReal) (funext fun a => Fin.ext ?_)).trans (bias_at m c (0 : Fin 1) f)
  match a with
  | ⟨0, _⟩ => show win0_4.index t (0 : Fin 2) * 1 + 1 * 0 = 0; omega
  | ⟨1, _⟩ => show win0_4.index t (1 : Fin 2) * 4096 + 1 * f.val = f.val; omega

/-! ## One stored entry is one entry of the whole-array function -/

/-- Whatever blocks the body loads: if they are rows 256·s … of batch b of x, the rows l[b, ·] and r[b, ·], the bias and
    the weight, then the entry it stores at (·, p, f) is the modulated dense layer's entry at (b, 256·s + p, f). -/
theorem stored_entry (x : S8x1024x1024.Idx → EReal) (l : S8x1024.Idx → EReal) (w : S4096x1024.Idx → EReal)
    (r : S8x4096.Idx → EReal) (bias : S4096.Idx → EReal)
    (v0 : Vec Ideal S1x256x1024 .f32) (v2 : Vec Ideal S1x1x1024 .f32) (v4 : Vec Ideal S1x1x4096 .f32)
    (v6 : Vec Ideal S1x4096 .f32) (v12 : Vec Ideal S4096x1024 .bf16) (b : Fin 8) (s : Fin 4)
    (h0 : ∀ (p : Fin 256) (k : Fin 1024), v0 (ix3 (0 : Fin 1) p k)
      = x (ix3 b (rowOf s p) k))
    (h2 : ∀ k : Fin 1024, v2 (ix3 (0 : Fin 1) (0 : Fin 1) k) = l (ix2 b k))
    (h4 : ∀ f : Fin 4096, v4 (ix3 (0 : Fin 1) (0 : Fin 1) f) = r (ix2 b f))
    (h6 : ∀ f : Fin 4096, v6 (ix2 (0 : Fin 1) f) = bias (ix1 f))
    (h12 : ∀ (f : Fin 4096) (k : Fin 1024), v12 (ix2 f k) = w (ix2 f k))
    (y : S1x256x4096.Idx) (i : S8x1024x4096.Idx)
    (e0 : (i 0).val = b.val) (e1 : (i 1).val = s.val * 256 + (y 1).val) (e2 : (i 2).val = (y 2).val) :
    k0_pay1 (F := Ideal) v0 v2 v4 v6 v12 y = modGemm x l w r bias i := by
  obtain ⟨u, p, f, rfl⟩ : ∃ (u : Fin 1) (p : Fin 256) (f : Fin 4096), y = ix3 u p f := ⟨y 0, y 1, y 2, eq_ix3 y⟩
  obtain ⟨b', t', f', rfl⟩ : ∃ (b' : Fin 8) (t' : Fin 1024) (f' : Fin 4096), i = ix3 b' t' f' := ⟨i 0, i 1, i 2, eq_ix3 i⟩
  obtain rfl : b' = b := Fin.ext e0
  obtain rfl : t' = (rowOf s p) := Fin.ext e1
  obtain rfl : f' = f := Fin.ext e2
  rw [Body.stored_at, modGemm_ix3]
  unfold entry
  simp only [h0, h2, h4, h6, h12]

/-! ## The blocks, the cover and the run -/

/-- The result array as one function of the argument arrays. -/
def result (c : Dev nD) : S8x1024x4096.Idx → EReal :=
  modGemm (m ((c : Thread nD τ).loc main_arg0)) (scaleL m c) (m ((c : Thread nD τ).loc main_arg2)) (scaleR m c)
    (m ((c : Thread nD τ).loc main_arg3))

/-- What point `t` writes back is its block of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zeros3]
  simp only [View.ld_unit_zero (S := S1x256x1024) zeros3, View.ld_unit_zero (S := S1x1x1024) zeros3,
    View.ld_unit_zero (S := S1x1x4096) zeros3, View.ld_unit_zero (S := S1x4096) zeros2,
    View.ld_unit_zero (S := S4096x1024) zeros2]
  obtain ⟨a0, a1, a2, w0, w1, l0, l1, l2, r0, r1, r2, b0, b1, o0, o1, o2⟩ := index_facts t
  funext y
  show k0_pay1 (F := Ideal) (iblk m c 0 t) (iblk m c 2 t) (iblk m c 3 t) (iblk m c 4 t) (iblk m c 1 t) y
    = result m c (((cfg0.win 5).blk t).view.emb y)
  refine stored_entry (m ((c : Thread nD τ).loc main_arg0)) (scaleL m c) (m ((c : Thread nD τ).loc main_arg2)) (scaleR m c)
    (m ((c : Thread nD τ).loc main_arg3)) (iblk m c 0 t) (iblk m c 2 t) (iblk m c 3 t) (iblk m c 4 t) (iblk m c 1 t)
    ⟨win0_5.index t (0 : Fin 3), o0⟩ ⟨win0_5.index t (1 : Fin 3), o1⟩
    (fun p k => x_block m c t ⟨win0_5.index t (0 : Fin 3), o0⟩ ⟨win0_5.index t (1 : Fin 3), o1⟩ a0 a1 a2 p k)
    (fun k => l_block m c t ⟨win0_5.index t (0 : Fin 3), o0⟩ l0 l1 l2 k)
    (fun f => r_block m c t ⟨win0_5.index t (0 : Fin 3), o0⟩ r0 r1 r2 f)
    (fun f => bias_block m c t b0 b1 f)
    (fun f k => w_block m c t w0 w1 f k)
    y (((cfg0.win 5).blk t).view.emb y) ?_ ?_ ?_
  · show win0_5.index t (0 : Fin 3) * 1 + 1 * (y 0).val = win0_5.index t (0 : Fin 3)
    have : (y 0).val < 1 := (y 0).isLt
    omega
  · show win0_5.index t (1 : Fin 3) * 256 + 1 * (y 1).val = win0_5.index t (1 : Fin 3) * 256 + (y 1).val
    omega
  · show win0_5.index t (2 : Fin 3) * 4096 + 1 * (y 2).val = (y 2).val
    omega

/-- An index of the result array is in point `t`'s block iff each coordinate is in the block's range on its axis. -/
theorem mem_block (t : Fin cfg0.N) (i : S8x1024x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v6).slice (win0_5.rect t)).set ↔ _
  rw [View.set_slice_whole, Rect.mem_set_unit]
  exact Iff.rfl

/-- The 32 blocks cover the result array: row t of batch b lies in the block of point (b, t / 256). -/
theorem covered (i : S8x1024x4096.Idx) :
    ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 4096 := (i 2).isLt
  obtain ⟨t, ht⟩ := index_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- The result array after the run. -/
theorem final (c : Dev nD) : (dats m 0 c).arrAt 5 cfg0.N = result m c :=
  (dats m 0 c).arrAt_eq_of_cover 5 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.ModGemm.Kernel

end
-- ==== Proof.RefIsSpec.lean ====
/-
  The reference's result is the modulated dense layer. Read one operation at a time: the final add's second operand is
  the bias broadcast along the feature axis; its first is the product of the contraction over k with r broadcast over
  the rows; the contraction's left factor at (b, t, k) is x[b, t, k] times l[b, k] broadcast over the rows. Each
  broadcast reads its operand at the coordinates it keeps, so at (b, t, f) the whole term is the specification's entry.
-/
import proofs.«147499_j74191265071781_2_alg».proof.Proof.Gen.ReferenceIdeal.Read
import proofs.«147499_j74191265071781_2_alg».proof.Proof.Spec

noncomputable section

namespace Cert.ModGemm.Reference

open Idealize.ShloMosaic Idealize.ShloMosaic.ValueIdx
open Cert.ReferenceIdeal Cert.ReferenceIdeal.Read

/-- The reference's last stage is `modGemm` of x, the weight and the bias, with l and r its two small products. -/
theorem result_eq (x0 : (⟨S8x1024x1024, .f32⟩ : BufTy).Contents (Elt Ideal)) (x1 : (⟨S8x50, .f32⟩ : BufTy).Contents (Elt Ideal))
    (x2 : (⟨S4096x1024, .f32⟩ : BufTy).Contents (Elt Ideal)) (x3 : (⟨S4096, .f32⟩ : BufTy).Contents (Elt Ideal))
    (x4 : (⟨S50x1024, .f32⟩ : BufTy).Contents (Elt Ideal)) (x5 : (⟨S50x4096, .f32⟩ : BufTy).Contents (Elt Ideal)) :
    val_main_v11 (F := Ideal) x0 x1 x2 x3 x4 x5
      = modGemm x0 (val_main_v0 (F := Ideal) x1 x4) x2 (val_main_v1 (F := Ideal) x1 x5) x3 := by
  funext i
  obtain ⟨b, t, f, rfl⟩ : ∃ (b : Fin 8) (t : Fin 1024) (f : Fin 4096), i = ix3 b t f := ⟨i 0, i 1, i 2, eq_ix3 i⟩
  have e1 : ∀ k : Fin 1024, lidx_main_v5 (ix3 b t f) k = ix3 b t k := fun k => funext fun a => Fin.ext (by
    match a with | ⟨0, _⟩ => rfl | ⟨1, _⟩ => rfl | ⟨2, _⟩ => rfl)
  have e2 : ∀ k : Fin 1024, idx_main_v2 (idx_main_v3 (ix3 b t k)) = ix2 b k := fun k => funext fun a => Fin.ext (by
    match a with | ⟨0, _⟩ => rfl | ⟨1, _⟩ => rfl)
  have e3 : ∀ k : Fin 1024, ridx_main_v5 (ix3 b t f) k = ix2 f k := fun k => funext fun a => Fin.ext (by
    match a with | ⟨0, _⟩ => rfl | ⟨1, _⟩ => rfl)
  have e4 : idx_main_v6 (idx_main_v7 (ix3 b t f)) = ix2 b f := funext fun a => Fin.ext (by
    match a with | ⟨0, _⟩ => rfl | ⟨1, _⟩ => rfl)
  have e5 : idx_main_v9 (idx_main_v10 (ix3 b t f)) = ix1 f := funext fun a => Fin.ext (by
    match a with | ⟨0, _⟩ => rfl)
  rw [val_main_v11_apply, val_main_v8_apply, val_main_v5_apply, val_main_v7_apply, val_main_v6_apply,
    val_main_v10_apply, val_main_v9_apply, modGemm_ix3]
  simp only [val_main_v4_apply, val_main_v3_apply, val_main_v2_apply, e1, e2, e3, e4, e5, Ideal.mulf_def, Ideal.addf_def]
  rfl

end Cert.ModGemm.Reference

end
-- ==== Proof.lean ====
/-
  The kernel and its reference both compute the modulated dense layer

      out[b, t, f] = (Σ_k (x[b, t, k] · l[b, k]) · w[f, k]) · r[b, f] + bias[f],   l = cluster · style_L,  r = cluster · style_R,

  the kernel one block of 256 rows of one batch per grid point, with the weight rounded to bf16 beforehand and the scaled
  rows rounded to bf16 on the way into the product; the reference by one contraction over the whole arrays. On the
  extended reals a change of float format is the identity and the two products are the same sum over k, so the two
  results are the same function of the arguments, index by index, with no algebraic law needed and no use of finiteness.
  The two small products l and r are the same host operation of the same arguments in both programs and are never opened.

  The three frames are the generated ones (the reference's is its generated run with the result dropped); the idealization
  rewrote nothing, so there is nothing to preserve; the value claim sets the kernel's run (Proof/Blocks.lean) beside the
  reference's generated run read at an index (Proof/RefIsSpec.lean) at the one function of Proof/Spec.lean.
-/
import proofs.«147499_j74191265071781_2_alg».proof.Defs
import proofs.«147499_j74191265071781_2_alg».proof.Proof.Gen.Kernel
import proofs.«147499_j74191265071781_2_alg».proof.Proof.Gen.Kernel.Skeleton
import proofs.«147499_j74191265071781_2_alg».proof.Proof.Gen.Kernel.Launch
import proofs.«147499_j74191265071781_2_alg».proof.Proof.Gen.Kernel.Points
import proofs.«147499_j74191265071781_2_alg».proof.Proof.Gen.Kernel.Frame
import proofs.«147499_j74191265071781_2_alg».proof.Proof.Gen.KernelIdeal
import proofs.«147499_j74191265071781_2_alg».proof.Proof.Gen.KernelIdeal.Skeleton
import proofs.«147499_j74191265071781_2_alg».proof.Proof.Gen.KernelIdeal.Launch
import proofs.«147499_j74191265071781_2_alg».proof.Proof.Gen.KernelIdeal.Points
import proofs.«147499_j74191265071781_2_alg».proof.Proof.Gen.KernelIdeal.Frame
import proofs.«147499_j74191265071781_2_alg».proof.Proof.Gen.ReferenceIdeal
import proofs.«147499_j74191265071781_2_alg».proof.Proof.Gen.Pre_finite_inputs
import proofs.«147499_j74191265071781_2_alg».proof.Proof.Gen.KernelIdeal.Value
import proofs.«147499_j74191265071781_2_alg».proof.Proof.Gen.ReferenceIdeal.Run
import proofs.«147499_j74191265071781_2_alg».proof.Proof.Gen.ReferenceIdeal.Read
import proofs.«147499_j74191265071781_2_alg».proof.Proof.Blocks
import proofs.«147499_j74191265071781_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs' small products are one host operation: the same contraction of the same two arrays. -/
theorem scaleL_eq (x1 : FVec Ideal Cert.ReferenceIdeal.S8x50 .f32) (x4 : FVec Ideal Cert.ReferenceIdeal.S50x1024 .f32) :
    Cert.ReferenceIdeal.Read.val_main_v0 (F := Ideal) x1 x4
      = Host.dotGeneral (F := Ideal) (φ₁ := .f32) (φ₂ := .f32) Cert.KernelIdeal.dot_S8x50_S50x1024_S8x1024_1_0_0_1_n_n none x1 x4 := rfl

theorem scaleR_eq (x1 : FVec Ideal Cert.ReferenceIdeal.S8x50 .f32) (x5 : FVec Ideal Cert.ReferenceIdeal.S50x4096 .f32) :
    Cert.ReferenceIdeal.Read.val_main_v1 (F := Ideal) x1 x5
      = Host.dotGeneral (F := Ideal) (φ₁ := .f32) (φ₂ := .f32) Cert.KernelIdeal.dot_S8x50_S50x4096_S8x4096_1_0_0_1_n_n none x1 x5 := rfl

/-- From memories that agree on the arguments both runs end with the result array at the modulated dense layer of the
    arguments: the kernel's by its blocks, the reference's by its operations read at an index. -/
theorem algebraic : Cert.algebraic_KernelIdeal_ReferenceIdeal := by
  intro m ρ m' ρ' _ hagree
  refine ⟨fun c => Cert.ModGemm.Kernel.result m c, Cert.ModGemm.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v11_eq, Cert.ModGemm.Reference.result_eq, scaleL_eq, scaleR_eq, a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
